-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x512x1024 : Shape := ⟨3, ![8, 512, 1024]⟩
abbrev S8x512 : Shape := ⟨2, ![8, 512]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x2048x1024 .f32) (main_arg1 : FVec F S8x512x1024 .f32) (main_arg2 : IVec S8x512 32) (main_arg3 : FVec F S1024x1024 .f32) (main_arg4 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x512x1024 .f32 := Host.absf main_arg1
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x2048x1024 : Shape := ⟨3, ![8, 2048, 1024]⟩
abbrev S8x512x1024 : Shape := ⟨3, ![8, 512, 1024]⟩
abbrev S8x512 : Shape := ⟨2, ![8, 512]⟩
abbrev S1024x1024 : Shape := ⟨2, ![1024, 1024]⟩
abbrev S1024 : Shape := ⟨1, ![1024]⟩
abbrev S8x1x512 : Shape := ⟨3, ![8, 1, 512]⟩
abbrev S1x1024 : Shape := ⟨2, ![1, 1024]⟩
abbrev S1x512x1024 : Shape := ⟨3, ![1, 512, 1024]⟩
abbrev S1x1x512 : Shape := ⟨3, ![1, 1, 512]⟩
abbrev S512x1024 : Shape := ⟨2, ![512, 1024]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x512x1024, .f32⟩
  | .hbm, ⟨2, _⟩ => ⟨S8x512, .i32⟩
  | .hbm, ⟨3, _⟩ => ⟨S1024x1024, .f32⟩
  | .hbm, ⟨4, _⟩ => ⟨S1024, .f32⟩
  | .hbm, ⟨5, _⟩ => ⟨S8x512, .f32⟩
  | .hbm, ⟨6, _⟩ => ⟨S8x1x512, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x512, .f32⟩
  | .local _ .vmem, ⟨5, _⟩ => ⟨S1x1x512, .f32⟩
  | .local _ .vmem, ⟨6, _⟩ => ⟨S1024x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S8x512_S8x1x512_0_2 : S8x512.BroadcastsInDim S8x1x512 (![0, 2] : Fin 2 → Fin S8x1x512.rank)
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x512x1024.size a
  hwx0_1 : ∀ i : grid0.Coords, EltTy.bits .f32 = 32 ∨ (Rect.block (s := S8x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x2048x1024.size a
  hwx0_5 : ∀ i : grid0.Coords, EltTy.bits .f32 = 32 ∨ (Rect.block (s := S8x2048x1024) S1x512x1024.size (cc0_transform_5 i) (hinb0_5 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x512x1024 : Shape := ⟨3, ![8, 512, 1024]⟩
abbrev S8x512 : Shape := ⟨2, ![8, 512]⟩
abbrev S1024x1024 : Shape := ⟨2, ![1024, 1024]⟩
abbrev S1024 : Shape := ⟨1, ![1024]⟩
abbrev S8x2048x512 : Shape := ⟨3, ![8, 2048, 512]⟩
abbrev S8x1x512 : Shape := ⟨3, ![8, 1, 512]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x512x1024, .f32⟩
  | .hbm, ⟨2, _⟩ => ⟨S8x512, .i32⟩
  | .hbm, ⟨3, _⟩ => ⟨S1024x1024, .f32⟩
  | .hbm, ⟨4, _⟩ => ⟨S1024, .f32⟩
  | .hbm, ⟨5, _⟩ => ⟨S8x2048x512, .f32⟩
  | .hbm, ⟨6, _⟩ => ⟨S8x512, .f32⟩
  | .hbm, ⟨7, _⟩ => ⟨S8x1x512, .f32⟩
  | .hbm, ⟨8, _⟩ => ⟨S8x2048x512, .f32⟩
  | .hbm, ⟨9, _⟩ => ⟨S8x2048x512, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048x1, .f32⟩
  | .hbm, ⟨16, _⟩ => ⟨S8x2048x512, .f32⟩
  | .hbm, ⟨17, _⟩ => ⟨S8x2048x512, .f32⟩
  | .hbm, ⟨18, _⟩ => ⟨S8x2048x512, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x512, .f32⟩
  | .hbm, ⟨33, _⟩ => ⟨S8x2048x512, .f32⟩
  | .hbm, ⟨34, _⟩ => ⟨S8x2048x1024, .f32⟩
  | .hbm, ⟨35, _⟩ => ⟨S8x2048x1024, .f32⟩
  | .hbm, ⟨36, _⟩ => ⟨S1x1x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048x1024, .f32⟩
  | .hbm, ⟨41, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S8x512_S8x1x512_0_2 : S8x512.BroadcastsInDim S8x1x512 (![0, 2] : Fin 2 → Fin S8x1x512.rank)
  bcast_S8x1x512_S8x2048x512_0_1_2 : S8x1x512.BroadcastsInDim S8x2048x512 (![0, 1, 2] : Fin 3 → Fin S8x2048x512.rank)
  reducesTo_S8x2048x512_S8x2048_d2 : S8x2048x512.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x512_0_1_2 : S8x2048x1.BroadcastsInDim S8x2048x512 (![0, 1, 2] : Fin 3 → Fin S8x2048x512.rank)
  bcast_S_S8x2048x1 : S_.BroadcastsInDim S8x2048x1 (![] : Fin 0 → Fin S8x2048x1.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x1024 : S_.BroadcastsInDim S8x2048x1024 (![] : Fin 0 → Fin S8x2048x1024.rank)
  dot_S8x2048x1024_S8x512x1024_S8x2048x512_2_2_1_1_0_0_wf : DotDims.WF S8x2048x1024 S8x512x1024 S8x2048x512 [2] [2] [1] [1] [0] [0]
  dot_S8x2048x512_S8x512x1024_S8x2048x1024_2_1_1_2_0_0_wf : DotDims.WF S8x2048x512 S8x512x1024 S8x2048x1024 [2] [1] [1] [2] [0] [0]
  dot_S8x2048x1024_S1024x1024_S8x2048x1024_2_1_01_0_n_n_wf : DotDims.WF S8x2048x1024 S1024x1024 S8x2048x1024 [2] [1] [0, 1] [0] [] []

variable [Facts₀]

def dot_S8x2048x1024_S8x512x1024_S8x2048x512_2_2_1_1_0_0 : DotDims S8x2048x1024 S8x512x1024 S8x2048x512 where
  lhsContracting := [2]
  rhsContracting := [2]
  lhsNonContracting := [1]
  rhsNonContracting := [1]
  lhsBatch := [0]
  rhsBatch := [0]
  wf := dot_S8x2048x1024_S8x512x1024_S8x2048x512_2_2_1_1_0_0_wf
def dot_S8x2048x512_S8x512x1024_S8x2048x1024_2_1_1_2_0_0 : DotDims S8x2048x512 S8x512x1024 S8x2048x1024 where
  lhsContracting := [2]
  rhsContracting := [1]
  lhsNonContracting := [1]
  rhsNonContracting := [2]
  lhsBatch := [0]
  rhsBatch := [0]
  wf := dot_S8x2048x512_S8x512x1024_S8x2048x1024_2_1_1_2_0_0_wf
def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf

class Facts : Prop extends Facts₀ where

variable [Facts]
-- ==== Proof.LibRealSum.lean ====
/-
  Finite sums of real numbers inside the extended reals.

  The extended reals are not a ring: a product does not distribute over a sum when an infinity meets a
  term of the other sign. Every law used by this certificate is therefore proved on the real numbers
  and carried to the extended reals through the coercion, which is additive and multiplicative on
  reals. This module holds the one general fact that makes that possible for sums of any finite length.
-/
import Idealize.ShloMosaic.PureOps.Ideal

namespace LibRealSum

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end LibRealSum
-- ==== Proof.Spec.lean ====
/-
  Masked attention with a renormalised softmax, one passage row at a time, on the extended reals.

  For a passage row with scores `sc q` against the 512 question rows and mask entries `mk q`, put
  `s q = sc q · mk q`, `M = max_q s q` (folded from -∞) and `e q = exp (s q - M)`. Two spellings of the attention
  weights:

  * the fused one:    `(e q · mk q) / (Σ_k e k · mk k + ε · Σ_k e k)`;
  * the two-step one: `a q / (Σ_k a k + ε)` with `a q = (e q / Σ_k e k) · mk q` (a softmax, masked, renormalised).

  When every score and mask entry is a real number, `S = Σ_k e k` is a positive real (each `e k` is an exponential of
  a real), the two-step numerator and denominator are the fused ones divided by `S`, and a quotient is unchanged when
  numerator and denominator are both multiplied by a positive real — also when the denominator is zero, where the
  quotient is the infinity of the numerator's sign (or the junk value at `0 / 0`) and multiplying the numerator by
  `S > 0` keeps its sign. So the two spellings are one function (`weightsR_eq_weightsK`).

  The rest of the kernel is the same on both sides: the weights contract with the question rows, the result with a
  column of the linear map, the bias is added, and the negative part is cut off (`rowOut`, `G`).
-/
import Idealize.ShloMosaic.PureOps.Ideal
import Idealize.ShloMosaic.PureOps.Ideal.Laws
import Idealize.ShloMosaic.Lib.ValueIdx
import proofs.«124821_j25975962206470_2_alg».proof.Proof.LibRealSum

noncomputable section

open scoped BigOperators

namespace Cert.Attn

open Idealize.ShloMosaic Idealize.ShloMosaic.ValueIdx

/-- The word of -∞, the word of zero, and the word of the renormalisation's ε (the float nearest 1e-13). -/
abbrev negInf : EReal := Ideal.ofBits .f32 0xFF800000#32
abbrev zeroW : EReal := Ideal.ofBits .f32 0x00000000#32
abbrev epsW : EReal := Ideal.ofBits .f32 0x29E12E13#32

/-- The maximum of a row, folded from -∞. -/
def rowMax (s : Fin 512 → EReal) : EReal := (Finset.univ : Finset (Fin 512)).fold max negInf s

/-- `e q = exp (s q - max s)` for the masked scores `s q = sc q · mk q`. -/
def expRow (sc mk : Fin 512 → EReal) (q : Fin 512) : EReal :=
  Ideal.exp (sc q * mk q - rowMax (fun k => sc k * mk k))

/-- The fused weights. -/
def weightsK (sc mk : Fin 512 → EReal) (q : Fin 512) : EReal :=
  Ideal.div (expRow sc mk q * mk q) ((∑ k, expRow sc mk k * mk k) + epsW * ∑ k, expRow sc mk k)

/-- The two-step weights: softmax, mask, renormalise (each host sum starts from the zero word). -/
def weightsR (sc mk : Fin 512 → EReal) (q : Fin 512) : EReal :=
  Ideal.div (Ideal.div (expRow sc mk q) (zeroW + ∑ k, expRow sc mk k) * mk q)
    ((zeroW + ∑ k, Ideal.div (expRow sc mk k) (zeroW + ∑ j, expRow sc mk j) * mk k) + epsW)

/-- One output entry from its passage row `prow`, the question rows `qm`, the mask row `mk`, a column `wcol` of the
    linear map and a bias entry `bo`, for a choice `alpha` of the weights. -/
def rowOut (alpha : (Fin 512 → EReal) → (Fin 512 → EReal) → Fin 512 → EReal)
    (prow : Fin 1024 → EReal) (qm : Fin 512 → Fin 1024 → EReal) (mk : Fin 512 → EReal) (wcol : Fin 1024 → EReal)
    (bo : EReal) : EReal :=
  max ((∑ h : Fin 1024, (∑ q : Fin 512, alpha (fun q' => ∑ h' : Fin 1024, prow h' * qm q' h') mk q * qm q h) * wcol h) + bo)
    zeroW

/-- The whole result array: entry `(b, p, o)` from passage row `(b, p)`, the question rows and mask row of batch `b`,
    row `o` of the linear map's matrix (its column in the transposed reading) and bias entry `o`. -/
def G (alpha : (Fin 512 → EReal) → (Fin 512 → EReal) → Fin 512 → EReal)
    (P : (⟨3, ![8, 2048, 1024]⟩ : Shape).Idx → EReal) (Q : (⟨3, ![8, 512, 1024]⟩ : Shape).Idx → EReal)
    (Mk : (⟨2, ![8, 512]⟩ : Shape).Idx → EReal) (W : (⟨2, ![1024, 1024]⟩ : Shape).Idx → EReal)
    (Bv : (⟨1, ![1024]⟩ : Shape).Idx → EReal) : (⟨3, ![8, 2048, 1024]⟩ : Shape).Idx → EReal := fun i =>
  rowOut alpha (fun h => P (ix3 (i 0) (i 1) h)) (fun q h => Q (ix3 (i 0) q h)) (fun q => Mk (ix2 (i 0) q))
    (fun h => W (ix2 (i 2) h)) (Bv (ix1 (i 2)))

/-- `rowOut` of equal data. -/
theorem rowOut_congr {alpha : (Fin 512 → EReal) → (Fin 512 → EReal) → Fin 512 → EReal}
    {p p' : Fin 1024 → EReal} {qm qm' : Fin 512 → Fin 1024 → EReal} {mk mk' : Fin 512 → EReal} {w w' : Fin 1024 → EReal}
    {bo bo' : EReal} (h1 : p = p') (h2 : qm = qm') (h3 : mk = mk') (h4 : w = w') (h5 : bo = bo') :
    rowOut alpha p qm mk w bo = rowOut alpha p' qm' mk' w' bo' := by
  subst h1 h2 h3 h4 h5; rfl

/-! ## The words -/

theorem negInf_eq : negInf = ⊥ := by simp [negInf, Ideal.ofBits, Ideal.ieee]

theorem epsW_real : ∃ r : ℝ, epsW = (r : EReal) := by
  unfold epsW Ideal.ofBits Ideal.ieee
  dsimp only
  rw [if_neg (by decide), if_neg (by decide)]
  exact ⟨_, rfl⟩

/-! ## The maximum of real numbers is real -/

theorem rowMax_real (s : Fin 512 → EReal) (hs : ∀ k, ∃ r : ℝ, s k = (r : EReal)) : ∃ r : ℝ, rowMax s = (r : EReal) := by
  have hlt : rowMax s < ⊤ := by
    unfold rowMax
    rw [Finset.fold_max_lt]
    refine ⟨?_, fun k _ => ?_⟩
    · rw [negInf_eq]; exact bot_lt_top
    · obtain ⟨r, hr⟩ := hs k; rw [hr]; exact EReal.coe_lt_top r
  have hgt : ⊥ < rowMax s := by
    unfold rowMax
    rw [Finset.lt_fold_max]
    refine Or.inr ⟨⟨0, by norm_num⟩, Finset.mem_univ _, ?_⟩
    obtain ⟨r, hr⟩ := hs ⟨0, by norm_num⟩; rw [hr]; exact EReal.bot_lt_coe r
  exact ⟨(rowMax s).toReal, (EReal.coe_toReal hlt.ne hgt.ne').symm⟩

/-! ## Quotients of reals -/

theorem div_coe_coe (a c : ℝ) (hc : c ≠ 0) : Ideal.div (a : EReal) (c : EReal) = ((a / c : ℝ) : EReal) := by
  rw [Ideal.div_coe hc, ← EReal.coe_mul, mul_one_div]

/-- Multiplying numerator and denominator by a positive real does not change a quotient, a zero denominator included. -/
theorem div_scale (a d s : ℝ) (hs : 0 < s) :
    Ideal.div ((a * s : ℝ) : EReal) ((d * s : ℝ) : EReal) = Ideal.div (a : EReal) (d : EReal) := by
  by_cases hd : d = 0
  · subst hd
    rw [zero_mul]
    unfold Ideal.div
    rw [if_pos EReal.coe_zero, if_pos EReal.coe_zero]
    have h : (0 < ((a * s : ℝ) : EReal)) ↔ (0 < (a : EReal)) := by
      rw [EReal.coe_pos, EReal.coe_pos]; exact mul_pos_iff_of_pos_right hs
    simp only [h]
  · have hds : d * s ≠ 0 := mul_ne_zero hd hs.ne'
    rw [div_coe_coe _ _ hds, div_coe_coe _ _ hd, mul_div_mul_right _ _ hs.ne']

/-! ## The two spellings of the weights agree on real rows -/

theorem weightsR_eq_weightsK (sc mk : Fin 512 → EReal) (hsc : ∀ q, ∃ r : ℝ, sc q = (r : EReal))
    (hmk : ∀ q, ∃ r : ℝ, mk q = (r : EReal)) : weightsR sc mk = weightsK sc mk := by
  choose c hc using hsc
  choose μ hμ using hmk
  obtain ⟨M, hM⟩ := rowMax_real (fun k => sc k * mk k) (fun k => ⟨c k * μ k, by rw [hc, hμ, EReal.coe_mul]⟩)
  obtain ⟨ε, hε⟩ := epsW_real
  have he : ∀ q, expRow sc mk q = ((Real.exp (c q * μ q - M) : ℝ) : EReal) := fun q => by
    unfold expRow; rw [hM, hc, hμ, ← EReal.coe_mul, ← EReal.coe_sub]; rfl
  have hS : 0 < ∑ k, Real.exp (c k * μ k - M) :=
    Finset.sum_pos (fun k _ => Real.exp_pos _) ⟨⟨0, by norm_num⟩, Finset.mem_univ _⟩
  have hSe : (∑ k, expRow sc mk k) = ((∑ k, Real.exp (c k * μ k - M) : ℝ) : EReal) := by
    simp only [he]; exact (LibRealSum.coe_sum _ _).symm
  have hZ : zeroW + ∑ k, expRow sc mk k = ((∑ k, Real.exp (c k * μ k - M) : ℝ) : EReal) := by
    rw [hSe]; show Ideal.ofBits .f32 0x00000000#32 + _ = _; rw [Ideal.ofBits_zero_f32, zero_add]
  have haR : ∀ k, Ideal.div (expRow sc mk k) (zeroW + ∑ j, expRow sc mk j) * mk k
      = ((Real.exp (c k * μ k - M) / (∑ j, Real.exp (c j * μ j - M)) * μ k : ℝ) : EReal) := fun k => by
    rw [hZ, he, hμ, div_coe_coe _ _ hS.ne', ← EReal.coe_mul]
  have hDR : (zeroW + ∑ k, Ideal.div (expRow sc mk k) (zeroW + ∑ j, expRow sc mk j) * mk k) + epsW
      = (((∑ k, Real.exp (c k * μ k - M) / (∑ j, Real.exp (c j * μ j - M)) * μ k) + ε : ℝ) : EReal) := by
    simp only [haR]
    rw [← LibRealSum.coe_sum, hε]
    show Ideal.ofBits .f32 0x00000000#32 + _ + _ = _
    rw [Ideal.ofBits_zero_f32, zero_add, ← EReal.coe_add]
  have haK : ∀ k, expRow sc mk k * mk k = ((Real.exp (c k * μ k - M) * μ k : ℝ) : EReal) := fun k => by
    rw [he, hμ, ← EReal.coe_mul]
  have hDK : (∑ k, expRow sc mk k * mk k) + epsW * ∑ k, expRow sc mk k
      = (((∑ k, Real.exp (c k * μ k - M) * μ k) + ε * ∑ k, Real.exp (c k * μ k - M) : ℝ) : EReal) := by
    simp only [haK]
    rw [hSe, ← LibRealSum.coe_sum, hε, ← EReal.coe_mul, ← EReal.coe_add]
  funext q
  unfold weightsR weightsK
  rw [haR q, hDR, haK q, hDK]
  have e1 : Real.exp (c q * μ q - M) * μ q
      = Real.exp (c q * μ q - M) / (∑ j, Real.exp (c j * μ j - M)) * μ q * ∑ j, Real.exp (c j * μ j - M) := by
    field_simp
  have e2 : (∑ k, Real.exp (c k * μ k - M) * μ k) + ε * ∑ k, Real.exp (c k * μ k - M)
      = ((∑ k, Real.exp (c k * μ k - M) / (∑ j, Real.exp (c j * μ j - M)) * μ k) + ε) * ∑ j, Real.exp (c j * μ j - M) := by
    rw [add_mul, Finset.sum_mul]
    congr 1
    exact Finset.sum_congr rfl fun k _ => by field_simp
  rw [e1, e2, div_scale _ _ _ hS]

/-- So the result array does not depend on the spelling, when passage and question hold real numbers and the mask is
    a real-valued array. -/
theorem G_weightsR_eq (P : (⟨3, ![8, 2048, 1024]⟩ : Shape).Idx → EReal) (Q : (⟨3, ![8, 512, 1024]⟩ : Shape).Idx → EReal)
    (Mk : (⟨2, ![8, 512]⟩ : Shape).Idx → EReal) (W : (⟨2, ![1024, 1024]⟩ : Shape).Idx → EReal)
    (Bv : (⟨1, ![1024]⟩ : Shape).Idx → EReal)
    (hP : ∀ i, ∃ r : ℝ, P i = (r : EReal)) (hQ : ∀ i, ∃ r : ℝ, Q i = (r : EReal)) (hMk : ∀ i, ∃ r : ℝ, Mk i = (r : EReal)) :
    G weightsR P Q Mk W Bv = G weightsK P Q Mk W Bv := by
  funext i
  unfold G rowOut
  rw [weightsR_eq_weightsK _ _ (fun q => ?_) (fun q => hMk _)]
  choose p hp using hP
  choose qq hq using hQ
  exact ⟨∑ h' : Fin 1024, p (ix3 (i 0) (i 1) h') * qq (ix3 (i 0) q h'), by
    rw [LibRealSum.coe_sum]
    exact Finset.sum_congr rfl fun h' _ => by
      show P (ix3 (i 0) (i 1) h') * Q (ix3 (i 0) q h') = _
      rw [hp, hq, EReal.coe_mul]⟩

end Cert.Attn

end
-- ==== Proof.LibRowSum.lean ====
/-
  A sum along the rows of a matrix, read at one entry.

  The vector unit's sum over axis 1 of an m×n matrix (from a zero accumulator) is, at row `a`, the sum of the
  entries of that row. The companion of the column form (a sum over axis 0), general in the two extents.
-/
import Idealize.ShloMosaic.PureOps.Ideal.Laws
import Idealize.ShloMosaic.Lib.ValueIdx

noncomputable section

namespace LibRowSum

open Idealize.ShloMosaic Idealize.ShloMosaic.ValueIdx
open scoped BigOperators

variable {m n : Nat}

/-- The source index of a row sum: column `k` of row `a`. -/
theorem lift_row (h : (⟨2, ![m, n]⟩ : Shape).Reduces [1] ⟨1, ![m]⟩) (a : Fin m) (k : Fin n) :
    h.lift (ix1 a) k = ix2 a k := by
  funext c
  apply Fin.ext
  match c with
  | ⟨0, _⟩ => rfl
  | ⟨1, _⟩ => rfl

/-- The sum over axis 1 of an m×n matrix at row `a`: the sum along the row. The accumulator hypothesis is the
    equation of the two zero words. -/
theorem multiReduction_add_row (src : FVec Ideal ⟨2, ![m, n]⟩ .f32) (h : (⟨2, ![m, n]⟩ : Shape).Reduces [1] ⟨1, ![m]⟩)
    (hφ : FKind.Formats .f32) (hacc : (0x00000000#32 : BitVec 32) = 0x00000000#32) (a : Fin m) :
    multiReduction .add [1] ⟨1, ![m]⟩ src 0x00000000#32 h hφ hacc (ix1 a) = ∑ k : Fin n, src (ix2 a k) := by
  refine (Ideal.multiReduction_add_single src 0x00000000#32 h hφ hacc (ix1 a)).trans ?_
  show ∑ k : Fin n, src (h.lift (ix1 a) k) = _
  exact Finset.sum_congr rfl fun k _ => congrArg src (lift_row h a k)

end LibRowSum

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibLayoutReads.lean ====
/-
  Three layout operations read at one entry, general in the extents and in the element type.

  * a vector `[n]` reshaped to a column `[n, 1]`: entry `(r, 0)` is the vector's entry `r` (both sit at row-major
    position `r`);
  * a vector `[n]` reshaped to a row `[1, n]`: entry `(0, b)` is the vector's entry `b`;
  * `r` consecutive rows of a matrix `[R, C]` from row `o` on, all `C` columns: entry `(a, b)` is the matrix's entry
    `(o + a, b)`.
-/
import Idealize.ShloMosaic.Lib.Pipeline.Value
import Idealize.ShloMosaic.Lib.ValueIdx

noncomputable section

namespace Cert.LayoutReads

open Idealize.ShloMosaic Idealize.ShloMosaic.ValueIdx

variable {α : Type}

/-- A vector `[n]` reshaped to a column `[n, 1]`, read at `(r, 0)`, is the vector at `r`. -/
theorem col_of_vec_apply {n : Nat} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A vector `[n]` reshaped to a row `[1, n]`, read at `(0, b)`, is the vector at `b`. -/
theorem row_of_vec_apply {n : Nat} (v : (⟨1, ![n]⟩ : Shape).Idx → α) (h : (⟨1, ![n]⟩ : Shape).ShapeCasts ⟨2, ![1, n]⟩)
    (b : Fin n) : shapeCast ⟨2, ![1, n]⟩ v h (ix2 (0 : Fin 1) b) = v (ix1 b) :=
  shapeCast_apply v h (ix2 (0 : Fin 1) b) (ix1 b) (by
    rw [Shape.rowMajor_val_two, Shape.rowMajor_val_one]; show b.val = 0 * n + b.val; omega)

/-- Rows `o` to `o + r` of a matrix `[R, C]`, all columns, read at `(a, b)`, are the matrix at `(o + a, b)`. -/
theorem rows_slice_apply {R C r o : Nat} (x : (⟨2, ![R, C]⟩ : Shape).Idx → α)
    (h : (⟨2, ![R, C]⟩ : Shape).Slices ![o, 0] ⟨2, ![r, C]⟩) (hb : o + r ≤ R) (a : Fin r) (b : Fin C) :
    extractStridedSlice ⟨2, ![r, C]⟩ ![o, 0] x h (ix2 a b)
      = x (ix2 (⟨o + a.val, by have := a.isLt; omega⟩ : Fin R) b) :=
  extractStridedSlice_apply ![o, 0] x h (ix2 a b) (ix2 (⟨o + a.val, by have := a.isLt; omega⟩ : Fin R) b)
    (fun c => match c with
      | ⟨0, _⟩ => rfl
      | ⟨1, _⟩ => by show b.val = 0 + b.val; omega)

end Cert.LayoutReads

end
-- ==== Proof.LibPlainProduct.lean ====
/-
  The plain matrix product `[m, k] × [k, n] → [m, n]` (dimension numbers: contract the left operand's axis 1 with the
  right operand's axis 0, no batch axis), read at an entry at the ideal values, for ANY record with those dimension
  numbers whatever its well-formedness proof: a `tpu.matmul` into the zero accumulator and the host's `dot_general` are
  both `Σ_c A(a, c) · B(c, b)` over the literal range `Fin k`. General lemmas in the library's style
  (Lib/StackMember.lean states the same for the record `DotDims.plain`).
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {m k n : Nat} {φ₁ φ₂ : FTy}

/-- The plain product's record, from its well-formedness. -/
abbrev rec2 (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output entry `(a, b)` and contraction coordinate `c` is `(a, c)`. -/
theorem lhsIdx_eq (w : DotDims.WF ⟨2, ![m, k]⟩ ⟨2, ![k, n]⟩ ⟨2, ![m, n]⟩ [1] [0] [0] [1] [] []) (a : Fin m) (b : Fin n) (c : Fin k) :
    (rec2 w).lhsIdx (ix2 a b) ((contrEquiv1 (rec2 w) k rfl rfl).symm c) = ix2 a c := by
  have c2 := contrEquiv1_symm_val (rec2 w) k rfl rfl c
  funext ax; apply Fin.ext
  match ax with
  | ⟨0, _⟩ => simp [DotDims.lhsIdx]; rfl
  | ⟨1, _⟩ => simp [DotDims.lhsIdx]; exact c2

/-- The right operand's index there is `(c, b)`. -/
theorem rhsIdx_eq (w : DotDims.WF ⟨2, ![m, k]⟩ ⟨2, ![k, n]⟩ ⟨2, ![m, n]⟩ [1] [0] [0] [1] [] []) (a : Fin m) (b : Fin n) (c : Fin k) :
    (rec2 w).rhsIdx (ix2 a b) ((contrEquiv1 (rec2 w) k rfl rfl).symm c) = ix2 c b := by
  have c2 := contrEquiv1_symm_val (rec2 w) k rfl rfl c
  funext ax; apply Fin.ext
  match ax with
  | ⟨0, _⟩ => simp [DotDims.rhsIdx]; exact c2
  | ⟨1, _⟩ => simp [DotDims.rhsIdx]; rfl

/-- A `tpu.matmul` with these dimension numbers into the zero accumulator, at entry `(a, b)`. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (rec2 w) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (rec2 w) k rfl rfl).symm]
  refine Finset.sum_congr rfl fun c _ => ?_
  rw [lhsIdx_eq, rhsIdx_eq]

/-- The host's `dot_general` with these dimension numbers, at entry `(a, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (rec2 w) prec A B (ix2 a b) = ∑ c : Fin k, A (ix2 a c) * B (ix2 c b) := by
  show FloatOps.dotGeneral _ prec _ A B (ix2 a b) = _
  rw [Ideal.dotGeneral_apply, ← Equiv.sum_comp (contrEquiv1 (rec2 w) k rfl rfl).symm]
  refine Finset.sum_congr rfl fun c _ => ?_
  rw [lhsIdx_eq, rhsIdx_eq]

end Idealize.ShloMosaic.PlainProduct

end
-- ==== Proof.KernelRow.lean ====
/-
  What the kernel body computes at one entry of its output block.

  A grid point works on a block of 512 passage rows `x (0, r, ·)`, the 512 question rows `y (0, q, ·)` of the same
  batch, that batch's mask row `μ (0, 0, q)`, the whole matrix `w (h, o)` of the linear map (already transposed) and
  the bias row `β (0, o)`. The body's value is cut into its mathematical stages:

  * `sM`  the masked scores `(Σ_h x(r,h) · y(q,h)) · μ(q)` (a product contracting BOTH operands' second axis);
  * `eM`  their exponentials after subtracting the row's maximum;
  * `aM`  those times the mask again;
  * `dC`  the fused denominator `Σ_k a(r,k) + ε · Σ_k e(r,k)`, a column;
  * `wM`  the weights `a / d`;
  * `tM`  the weights contracted with the question rows;
  * `lM`  that contracted with the linear map, plus the bias.

  Each stage is read at explicit coordinates; the changes of float format are the identity on the extended reals,
  the reshapes only add or drop a unit axis, and the broadcasts repeat a row down the rows or a column across the
  columns. Put together, entry `(0, r, o)` of the stored block is `rowOut weightsK` of row `r`'s data.
-/
import proofs.«124821_j25975962206470_2_alg».proof.Proof.Gen.KernelIdeal.Skeleton
import proofs.«124821_j25975962206470_2_alg».proof.Proof.Spec
import proofs.«124821_j25975962206470_2_alg».proof.Proof.LibRowSum
import proofs.«124821_j25975962206470_2_alg».proof.Proof.LibBroadcastTo
import proofs.«124821_j25975962206470_2_alg».proof.Proof.LibLayoutReads
import proofs.«124821_j25975962206470_2_alg».proof.Proof.LibPlainProduct
import Idealize.ShloMosaic.Lib.Pipeline.Value
import Idealize.ShloMosaic.Lib.ValueIdx
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Attn

/-! ## Unit axes added and dropped -/

/-- A `[1, 512, 1024]` block read as a `[512, 1024]` matrix. -/
theorem blockMat_apply {α : Type} (v : S1x512x1024.Idx → α) (r : Fin 512) (h : Fin 1024) :
    shapeCast S512x1024 v shapeCasts_S1x512x1024_S512x1024 (ix2 r h) = v (ix3 (0 : Fin 1) r h) :=
  shapeCast_apply v _ (ix2 r h) (ix3 (0 : Fin 1) r h) (by
    rw [Shape.rowMajor_val_three, Shape.rowMajor_val_two]
    show ((0 : ℕ) * 512 + r.val) * 1024 + h.val = r.val * 1024 + h.val
    omega)

/-- A `[1, 1, 512]` block read as a `[1, 512]` row. -/
theorem maskRow_apply {α : Type} (v : S1x1x512.Idx → α) (q : Fin 512) :
    shapeCast S1x512 v shapeCasts_S1x1x512_S1x512 (ix2 (0 : Fin 1) q) = v (ix3 (0 : Fin 1) (0 : Fin 1) q) :=
  shapeCast_apply v _ (ix2 (0 : Fin 1) q) (ix3 (0 : Fin 1) (0 : Fin 1) q) (by
    rw [Shape.rowMajor_val_three, Shape.rowMajor_val_two]
    show ((0 : ℕ) * 1 + 0) * 512 + q.val = 0 * 512 + q.val
    omega)

/-- A `[512, 1024]` matrix read as a `[1, 512, 1024]` block. -/
theorem matBlock_apply {α : Type} (X : S512x1024.Idx → α) (r : Fin 512) (o : Fin 1024) :
    shapeCast S1x512x1024 X shapeCasts_S512x1024_S1x512x1024 (ix3 (0 : Fin 1) r o) = X (ix2 r o) :=
  shapeCast_apply X _ (ix3 (0 : Fin 1) r o) (ix2 r o) (by
    rw [Shape.rowMajor_val_three, Shape.rowMajor_val_two]
    show r.val * 1024 + o.val = ((0 : ℕ) * 512 + r.val) * 1024 + o.val
    omega)

/-! ## The three reductions -/

/-- The scores' dimension record: both operands are contracted along their second axis. -/
abbrev D1 : DotDims S512x1024 S512x1024 S512x512 := dot_S512x1024_S512x1024_S512x512_1_1_0_0_n_n

/-- The product contracting both second axes into a zero accumulator: entry `(r, q)` is `Σ_h A(r,h) · B(q,h)`. -/
theorem scores_apply (A B : FVec Ideal S512x1024 .bf16) (r q : Fin 512) :
    matmul D1 none A B (constant S512x512 .f32 0x00000000#32) (ix2 r q) = ∑ h : Fin 1024, A (ix2 r h) * B (ix2 q h) := by
  show FloatOps.matmul D1 none A B _ (ix2 r q) = _
  rw [Ideal.matmul_constant_zero_apply, ← Equiv.sum_comp (contrEquiv1 D1 1024 rfl rfl).symm]
  refine Finset.sum_congr rfl fun h _ => ?_
  have hk := contrEquiv1_symm_val D1 1024 rfl rfl h
  have el : D1.lhsIdx (ix2 r q) ((contrEquiv1 D1 1024 rfl rfl).symm h) = ix2 r h := funext fun a => Fin.ext (by
    match a with
    | ⟨0, _⟩ =>
      show (D1.lhsIdx (ix2 r q) ((contrEquiv1 D1 1024 rfl rfl).symm h) 0).val = r.val
      unfold DotDims.lhsIdx
      rw [dif_neg (show ¬(0 : Fin S512x1024.rank) ∈ D1.lhsBatch by decide),
        dif_pos (show (0 : Fin S512x1024.rank) ∈ D1.lhsNonContracting by decide)]
      rfl
    | ⟨1, _⟩ => exact (D1.lhsIdx_val_of_single rfl (ix2 r q) _).trans hk)
  have er : D1.rhsIdx (ix2 r q) ((contrEquiv1 D1 1024 rfl rfl).symm h) = ix2 q h := funext fun a => Fin.ext (by
    match a with
    | ⟨0, _⟩ =>
      show (D1.rhsIdx (ix2 r q) ((contrEquiv1 D1 1024 rfl rfl).symm h) 0).val = q.val
      unfold DotDims.rhsIdx
      rw [dif_neg (show ¬(0 : Fin S512x1024.rank) ∈ D1.rhsBatch by decide),
        dif_pos (show (0 : Fin S512x1024.rank) ∈ D1.rhsNonContracting by decide)]
      rfl
    | ⟨1, _⟩ => exact (D1.rhsIdx_val_of_single rfl (ix2 r q) _).trans hk)
  rw [el, er]

/-- The maximum along a row, from the word of -∞. -/
theorem rowmax_apply (X : FVec Ideal S512x512 .f32) (r : Fin 512) :
    multiReduction .maximumf [1] S512 X 0xFF800000#32 reduces_S512x512_S512 (.inl rfl) rfl (ix1 r)
      = rowMax (fun k => X (ix2 r k)) := by
  refine (Ideal.multiReduction_maximumf_single X 0xFF800000#32 reduces_S512x512_S512 (.inl rfl) rfl (ix1 r)).trans ?_
  unfold rowMax
  exact congrArg (fun f => Finset.fold max negInf f (Finset.univ : Finset (Fin 512)))
    (funext fun k => congrArg X (LibRowSum.lift_row reduces_S512x512_S512 r k))

/-- The sum along a row, from the zero word. -/
theorem rowsum_apply (X : FVec Ideal S512x512 .f32) (r : Fin 512) :
    multiReduction .add [1] S512 X 0x00000000#32 reduces_S512x512_S512 (.inl rfl) rfl (ix1 r) = ∑ k : Fin 512, X (ix2 r k) :=
  LibRowSum.multiReduction_add_row X reduces_S512x512_S512 (.inl rfl) rfl r

/-! ## The stages of the body -/

section Stages

variable (v0 v2 : Vec Ideal S1x512x1024 .f32) (v4 : Vec Ideal S1x1x512 .f32) (v30 : Vec Ideal S1024x1024 .bf16)
  (v33 : Vec Ideal S1x1024 .f32)

/-- A `[1, 512, 1024]` block as a matrix (the change of format is the identity). -/
def pM (v : Vec Ideal S1x512x1024 .f32) : FVec Ideal S512x1024 .bf16 :=
  truncf .bf16 (shapeCast S512x1024 v shapeCasts_S1x512x1024_S512x1024 : FVec Ideal S512x1024 .f32) bitsLt_bf16_f32

/-- The mask block as a row. -/
def mR : FVec Ideal S1x512 .f32 := shapeCast S1x512 v4 shapeCasts_S1x1x512_S1x512

/-- The masked scores. -/
def sM : FVec Ideal S512x512 .f32 :=
  mulf (matmul D1 none (pM v0) (pM v2) (constant S512x512 .f32 0x00000000#32)) (broadcastTo S512x512 (mR v4) broadcasts_S1x512_S512x512)

/-- Their exponentials after subtracting each row's maximum. -/
def eM : FVec Ideal S512x512 .f32 :=
  exp (subf (sM v0 v2 v4) (broadcastTo S512x512 (shapeCast S512x1 (multiReduction .maximumf [1] S512 (sM v0 v2 v4) 0xFF800000#32 reduces_S512x512_S512 (.inl rfl) rfl : FVec Ideal S512 .f32) shapeCasts_S512_S512x1 : FVec Ideal S512x1 .f32) broadcasts_S512x1_S512x512))

/-- Masked again. -/
def aM : FVec Ideal S512x512 .f32 := mulf (eM v0 v2 v4) (broadcastTo S512x512 (mR v4) broadcasts_S1x512_S512x512)

/-- The fused denominator, a column. -/
def dC : FVec Ideal S512x1 .f32 :=
  addf (shapeCast S512x1 (multiReduction .add [1] S512 (aM v0 v2 v4) 0x00000000#32 reduces_S512x512_S512 (.inl rfl) rfl : FVec Ideal S512 .f32) shapeCasts_S512_S512x1)
    (mulf (broadcast S512x1 (Scalar.ofBits .f32 0x29E12E13#32 : Ideal .f32))
      (shapeCast S512x1 (multiReduction .add [1] S512 (eM v0 v2 v4) 0x00000000#32 reduces_S512x512_S512 (.inl rfl) rfl : FVec Ideal S512 .f32) shapeCasts_S512_S512x1))

/-- The weights. -/
def wM : FVec Ideal S512x512 .f32 := divf (aM v0 v2 v4) (broadcastTo S512x512 (dC v0 v2 v4) broadcasts_S512x1_S512x512)

/-- The weights contracted with the question rows. -/
def tM : FVec Ideal S512x1024 .f32 :=
  matmul dot_S512x512_S512x1024_S512x1024_1_0_0_1_n_n none (truncf .bf16 (wM v0 v2 v4) bitsLt_bf16_f32 : FVec Ideal S512x512 .bf16) (pM v2)
    (constant S512x1024 .f32 0x00000000#32)

/-- Contracted with the linear map, plus the bias. -/
def lM : FVec Ideal S512x1024 .f32 :=
  addf (matmul dot_S512x1024_S1024x1024_S512x1024_1_0_0_1_n_n none (truncf .bf16 (tM v0 v2 v4) bitsLt_bf16_f32 : FVec Ideal S512x1024 .bf16)
      (shapeCast S1024x1024 v30 shapeCasts_S1024x1024_S1024x1024 : FVec Ideal S1024x1024 .bf16) (constant S512x1024 .f32 0x00000000#32))
    (broadcastTo S512x1024 (shapeCast S1x1024 v33 shapeCasts_S1x1024_S1x1024 : FVec Ideal S1x1024 .f32) broadcasts_S1x1024_S512x1024)

/-- The generated payload is the last stage. -/
theorem pay2_eq : k0_pay2 v0 v2 v4 v30 v33 = lM v0 v2 v4 v30 v33 := rfl

/-- The scores of passage row `r` and its batch's mask row, as functions of the question row. -/
abbrev scK (r : Fin 512) : Fin 512 → EReal := fun k => ∑ h : Fin 1024, v0 (ix3 (0 : Fin 1) r h) * v2 (ix3 (0 : Fin 1) k h)
abbrev mkK : Fin 512 → EReal := fun k => v4 (ix3 (0 : Fin 1) (0 : Fin 1) k)

theorem pM_apply (v : Vec Ideal S1x512x1024 .f32) (r : Fin 512) (h : Fin 1024) : pM v (ix2 r h) = v (ix3 (0 : Fin 1) r h) :=
  blockMat_apply v r h

theorem mR_apply (q : Fin 512) : mR v4 (ix2 (0 : Fin 1) q) = v4 (ix3 (0 : Fin 1) (0 : Fin 1) q) := maskRow_apply v4 q

theorem sM_apply (r q : Fin 512) : sM v0 v2 v4 (ix2 r q) = scK v0 v2 r q * mkK v4 q := by
  unfold sM
  show matmul D1 none (pM v0) (pM v2) (constant S512x512 .f32 0x00000000#32) (ix2 r q)
    * broadcastTo S512x512 (mR v4) broadcasts_S1x512_S512x512 (ix2 r q) = _
  rw [scores_apply, Cert.BroadcastTo.row_apply, mR_apply]
  simp only [pM_apply]

theorem eM_apply (r q : Fin 512) : eM v0 v2 v4 (ix2 r q) = expRow (scK v0 v2 r) (mkK v4) q := by
  unfold eM
  show Ideal.exp (sM v0 v2 v4 (ix2 r q) - broadcastTo S512x512 (shapeCast S512x1 (multiReduction .maximumf [1] S512 (sM v0 v2 v4) 0xFF800000#32 reduces_S512x512_S512 (.inl rfl) rfl : FVec Ideal S512 .f32) shapeCasts_S512_S512x1 : FVec Ideal S512x1 .f32) broadcasts_S512x1_S512x512 (ix2 r q)) = _
  rw [Cert.BroadcastTo.col_apply, Cert.LayoutReads.col_of_vec_apply, rowmax_apply]
  simp only [sM_apply]
  rfl

theorem aM_apply (r q : Fin 512) : aM v0 v2 v4 (ix2 r q) = expRow (scK v0 v2 r) (mkK v4) q * mkK v4 q := by
  unfold aM
  show eM v0 v2 v4 (ix2 r q) * broadcastTo S512x512 (mR v4) broadcasts_S1x512_S512x512 (ix2 r q) = _
  rw [eM_apply, Cert.BroadcastTo.row_apply, mR_apply]

theorem dC_apply (r : Fin 512) : dC v0 v2 v4 (ix2 r (0 : Fin 1))
    = (∑ k, expRow (scK v0 v2 r) (mkK v4) k * mkK v4 k) + epsW * ∑ k, expRow (scK v0 v2 r) (mkK v4) k := by
  unfold dC
  show shapeCast S512x1 (multiReduction .add [1] S512 (aM v0 v2 v4) 0x00000000#32 reduces_S512x512_S512 (.inl rfl) rfl : FVec Ideal S512 .f32) shapeCasts_S512_S512x1 (ix2 r (0 : Fin 1))
    + epsW * shapeCast S512x1 (multiReduction .add [1] S512 (eM v0 v2 v4) 0x00000000#32 reduces_S512x512_S512 (.inl rfl) rfl : FVec Ideal S512 .f32) shapeCasts_S512_S512x1 (ix2 r (0 : Fin 1)) = _
  rw [Cert.LayoutReads.col_of_vec_apply, Cert.LayoutReads.col_of_vec_apply, rowsum_apply, rowsum_apply]
  simp only [aM_apply, eM_apply]

theorem wM_apply (r q : Fin 512) : wM v0 v2 v4 (ix2 r q) = weightsK (scK v0 v2 r) (mkK v4) q := by
  unfold wM
  show Ideal.div (aM v0 v2 v4 (ix2 r q)) (broadcastTo S512x512 (dC v0 v2 v4) broadcasts_S512x1_S512x512 (ix2 r q)) = _
  rw [Cert.BroadcastTo.col_apply, aM_apply, dC_apply]
  rfl

theorem tM_apply (r : Fin 512) (h : Fin 1024) :
    tM v0 v2 v4 (ix2 r h) = ∑ q : Fin 512, weightsK (scK v0 v2 r) (mkK v4) q * v2 (ix3 (0 : Fin 1) q h) := by
  unfold tM
  refine (PlainProduct.matmul_zero_apply dot_S512x512_S512x1024_S512x1024_1_0_0_1_n_n_wf none
    (truncf .bf16 (wM v0 v2 v4) bitsLt_bf16_f32 : FVec Ideal S512x512 .bf16) (pM v2) r h).trans ?_
  refine Finset.sum_congr rfl fun q _ => ?_
  show wM v0 v2 v4 (ix2 r q) * pM v2 (ix2 q h) = _
  rw [wM_apply, pM_apply]

theorem lM_apply (r : Fin 512) (o : Fin 1024) :
    lM v0 v2 v4 v30 v33 (ix2 r o) = (∑ h : Fin 1024, tM v0 v2 v4 (ix2 r h) * v30 (ix2 h o)) + v33 (ix2 (0 : Fin 1) o) := by
  unfold lM
  show matmul dot_S512x1024_S1024x1024_S512x1024_1_0_0_1_n_n none (truncf .bf16 (tM v0 v2 v4) bitsLt_bf16_f32 : FVec Ideal S512x1024 .bf16)
      (shapeCast S1024x1024 v30 shapeCasts_S1024x1024_S1024x1024 : FVec Ideal S1024x1024 .bf16) (constant S512x1024 .f32 0x00000000#32) (ix2 r o)
    + broadcastTo S512x1024 (shapeCast S1x1024 v33 shapeCasts_S1x1024_S1x1024 : FVec Ideal S1x1024 .f32) broadcasts_S1x1024_S512x1024 (ix2 r o) = _
  rw [Cert.BroadcastTo.row_apply, shapeCast_self, shapeCast_self]
  exact congrArg (· + v33 (ix2 (0 : Fin 1) o))
    (PlainProduct.matmul_zero_apply dot_S512x1024_S1024x1024_S512x1024_1_0_0_1_n_n_wf none
      (truncf .bf16 (tM v0 v2 v4) bitsLt_bf16_f32 : FVec Ideal S512x1024 .bf16) v30 r o)

/-- ENTRY `(0, r, o)` OF THE STORED BLOCK: the fused form of the row's output. -/
theorem pay_apply (r : Fin 512) (o : Fin 1024) :
    k0_pay1 (k0_pay2 v0 v2 v4 v30 v33) (Scalar.ofBits .f32 0x00000000#32) (ix3 (0 : Fin 1) r o)
      = rowOut weightsK (fun h => v0 (ix3 (0 : Fin 1) r h)) (fun q h => v2 (ix3 (0 : Fin 1) q h))
          (fun q => v4 (ix3 (0 : Fin 1) (0 : Fin 1) q)) (fun h => v30 (ix2 h o)) (v33 (ix2 (0 : Fin 1) o)) := by
  rw [pay2_eq]
  unfold k0_pay1
  show shapeCast S1x512x1024 (maximumf (lM v0 v2 v4 v30 v33) (broadcast S512x1024 (Scalar.ofBits .f32 0x00000000#32 : Ideal .f32)) : FVec Ideal S512x1024 .f32)
    shapeCasts_S512x1024_S1x512x1024 (ix3 (0 : Fin 1) r o) = _
  rw [matBlock_apply]
  show max (lM v0 v2 v4 v30 v33 (ix2 r o)) zeroW = _
  rw [lM_apply]
  exact congrArg (fun x => max (x + v33 (ix2 (0 : Fin 1) o)) zeroW)
    (Finset.sum_congr rfl fun h _ => congrArg (· * v30 (ix2 h o)) (tM_apply v0 v2 v4 r h))

end Stages

end Cert.KernelIdeal.Row

end
-- ==== Proof.KernelArray.lean ====
/-
  From blocks to the whole array: after the run the kernel's result array is `G weightsK` of the arguments.

  The grid has 8 × 4 points; point `(bi, pi)` reads passage rows `pi·512 … pi·512 + 511` of batch `bi`, all question
  rows and the mask row of batch `bi`, the whole (transposed) matrix of the linear map and the bias row, and writes
  the result block of the same rows. The relations between the windows' block indices are decided once over the 32
  points. Three of the windows read arrays written before the launch: the mask converted to floats with a unit axis
  inserted, the linear map's matrix transposed (entry `(h, o)` of the transposed matrix is entry `(o, h)` of the
  argument), and the bias as a one-row matrix. So what point `t` writes back is block `t` of the one whole-array function
  `GK`; the 32 blocks cover the array (row `p` of batch `b` lies in the block of point `(b, p / 512)`), hence the array
  ends at `GK`.
-/
import proofs.«124821_j25975962206470_2_alg».proof.Proof.Gen.KernelIdeal.Value
import proofs.«124821_j25975962206470_2_alg».proof.Proof.KernelRow
import proofs.«124821_j25975962206470_2_alg».proof.Proof.LibLayoutReads
import Idealize.ShloMosaic.Lib.StableHlo.Run
import Idealize.ShloMosaic.Lib.Pipeline.Value
import Idealize.ShloMosaic.PureOps.Ideal

set_option maxRecDepth 16384

noncomputable section

open scoped BigOperators

namespace Cert.KernelIdeal.ArrValue

open Cert.KernelIdeal Cert.KernelIdeal.Gen Idealize.ShloMosaic Idealize.ShloMosaic.TcCoe Idealize.SL.Sem
  Idealize.ShloMosaic.StableHlo Idealize.ShloMosaic.ValueIdx Cert.Attn
open Idealize.ShloMosaic.Pipeline (Dat)

variable (m : (ℓ : Loc nD τ sig) → Buf (Elt Ideal) ℓ) (ρ : Dev nD → PrngReg)

/-- The mask as floats. -/
def maskF (c : Dev nD) : S8x512.Idx → EReal :=
  (sitofp .f32 (m ((c : Thread nD τ).loc main_arg2) : IVec S8x512 32) : FVec Ideal S8x512 .f32)

/-- The result array as one function of the argument arrays. -/
def GK (c : Dev nD) : S8x2048x1024.Idx → EReal :=
  G weightsK (m ((c : Thread nD τ).loc main_arg0)) (m ((c : Thread nD τ).loc main_arg1)) (maskF m c)
    (m ((c : Thread nD τ).loc main_arg3)) (m ((c : Thread nD τ).loc main_arg4))

/-! ## The arrays written before the launch -/

theorem V_mask (c : Dev nD) : (V m c main_v1 : S8x1x512.Idx → EReal)
    = broadcastInDim S8x1x512 ![0, 2] bcast_S8x512_S8x1x512_0_2 (maskF m c) := by
  dsimp only [V, hostOps0]; after_results; rfl

theorem V_map (c : Dev nD) : (V m c main_v3 : S1024x1024.Idx → EReal)
    = transpose S1024x1024 [1, 0] (m ((c : Thread nD τ).loc main_arg3)) transposes_S1024x1024_S1024x1024_1_0 := by
  dsimp only [V, hostOps0]; after_results; rfl

theorem V_bias (c : Dev nD) : (V m c main_v4 : S1x1024.Idx → EReal)
    = shapeCast S1x1024 (m ((c : Thread nD τ).loc main_arg4)) shapeCasts_S1024_S1x1024 := by
  dsimp only [V, hostOps0]; after_results; rfl

/-! ## The index maps, decided over the grid -/

theorem hz3 : (![0, 0, 0] : Fin 3 → Nat) = fun _ => 0 := funext fun a => by fin_cases a <;> rfl
theorem hz2 : (![0, 0] : Fin 2 → Nat) = fun _ => 0 := funext fun a => by fin_cases a <;> rfl

theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (2 : Fin 3) = 0 ∧ win0_5.index t (0 : Fin 3) ≤ 7 ∧ win0_5.index t (1 : Fin 3) ≤ 3 :=
  (by decide +kernel : ∀ t : Fin grid0.N, _)

/-- Every (batch, row-tile) pair is some point's output block. -/
theorem idx_onto : ∀ (q0 : Fin 8) (q1 : Fin 4), ∃ t : Fin cfg0.N, win0_5.index t = ![q0.val, q1.val, 0] :=
  (by decide +kernel : ∀ (q0 : Fin 8) (q1 : Fin 4), ∃ t : Fin grid0.N, win0_5.index t = ![q0.val, q1.val, 0])

/-! ## What a point writes back -/

/-- WHAT POINT `t` WRITES BACK is block `t` of `GK`. -/
theorem flushed_eq (c : Dev nD) (t : Fin cfg0.N) :
    (dats m 0 c).flushed 5 t = ((cfg0.win 5).blk t).view.read (Elt Ideal) (GK m c) := by
  rw [Value.flushed5]
  unfold out0_5
  rw [View.canon_unit_zero hz3]
  simp only [View.ld_unit_zero (S := S1x512x1024) hz3, View.ld_unit_zero (S := S1x1x512) hz3,
    View.ld_unit_zero (S := S1024x1024) hz2, View.ld_unit_zero (S := S1x1024) hz2]
  obtain ⟨e00, e01, e02, e10, e11, e12, e20, e21, e22, e30, e31, e40, e41, e52, b0, b1⟩ := idx_facts t
  funext j
  obtain ⟨z, r, o, rfl⟩ : ∃ (z : Fin 1) (r : Fin 512) (o : Fin 1024), j = ix3 z r o := ⟨j 0, j 1, j 2, eq_ix3 j⟩
  obtain rfl : z = 0 := Subsingleton.elim _ _
  show k0_pay1 (k0_pay2 (iblk m c 0 t) (iblk m c 1 t) (iblk m c 2 t) (iblk m c 3 t) (iblk m c 4 t))
      (Scalar.ofBits .f32 0x00000000#32) (ix3 (0 : Fin 1) r o)
    = GK m c (((cfg0.win 5).blk t).view.emb (ix3 (0 : Fin 1) r o))
  refine (Row.pay_apply (iblk m c 0 t) (iblk m c 1 t) (iblk m c 2 t) (iblk m c 3 t) (iblk m c 4 t) r o).trans ?_
  have hr : r.val < 512 := r.isLt
  -- the array index of the entry: batch `I0`, row `I1`, column `o`
  have hi : ((cfg0.win 5).blk t).view.emb (ix3 (0 : Fin 1) r o)
      = ix3 (⟨win0_5.index t (0 : Fin 3), by omega⟩ : Fin 8) (⟨win0_5.index t (1 : Fin 3) * 512 + r.val, by omega⟩ : Fin 2048) o := by
    funext a; apply Fin.ext
    match a with
    | ⟨0, _⟩ => show win0_5.index t (0 : Fin 3) * 1 + 1 * 0 = win0_5.index t (0 : Fin 3); omega
    | ⟨1, _⟩ => show win0_5.index t (1 : Fin 3) * 512 + 1 * r.val = win0_5.index t (1 : Fin 3) * 512 + r.val; omega
    | ⟨2, _⟩ => show win0_5.index t (2 : Fin 3) * 1024 + 1 * o.val = o.val; omega
  rw [hi]
  refine rowOut_congr (funext fun h => ?_) (funext fun q => funext fun h => ?_) (funext fun q => ?_) (funext fun h => ?_) ?_
  · -- the passage block
    show V m c main_arg0 (((cfg0.win 0).blk t).view.emb (ix3 (0 : Fin 1) r h)) = _
    rw [V_main_arg0]
    refine congrArg (m ((c : Thread nD τ).loc main_arg0)) (funext fun a => Fin.ext ?_)
    match a with
    | ⟨0, _⟩ => show win0_0.index t (0 : Fin 3) * 1 + 1 * 0 = win0_5.index t (0 : Fin 3); omega
    | ⟨1, _⟩ => show win0_0.index t (1 : Fin 3) * 512 + 1 * r.val = win0_5.index t (1 : Fin 3) * 512 + r.val; omega
    | ⟨2, _⟩ => show win0_0.index t (2 : Fin 3) * 1024 + 1 * h.val = h.val; omega
  · -- the question block
    show V m c main_arg1 (((cfg0.win 1).blk t).view.emb (ix3 (0 : Fin 1) q h)) = _
    rw [V_main_arg1]
    refine congrArg (m ((c : Thread nD τ).loc main_arg1)) (funext fun a => Fin.ext ?_)
    match a with
    | ⟨0, _⟩ => show win0_1.index t (0 : Fin 3) * 1 + 1 * 0 = win0_5.index t (0 : Fin 3); omega
    | ⟨1, _⟩ => show win0_1.index t (1 : Fin 3) * 512 + 1 * q.val = q.val; omega
    | ⟨2, _⟩ => show win0_1.index t (2 : Fin 3) * 1024 + 1 * h.val = h.val; omega
  · -- the mask row: the float mask with a unit axis inserted
    show (V m c main_v1 : S8x1x512.Idx → EReal) (((cfg0.win 2).blk t).view.emb (ix3 (0 : Fin 1) (0 : Fin 1) q)) = _
    rw [V_mask]
    exact broadcastInDim_apply _ bcast_S8x512_S8x1x512_0_2 (maskF m c) _
      (ix2 (⟨win0_5.index t (0 : Fin 3), by omega⟩ : Fin 8) q) (fun a => match a with
      | ⟨0, _⟩ => by
        show win0_5.index t (0 : Fin 3) = if (8 : Nat) = 1 then 0 else win0_2.index t (0 : Fin 3) * 1 + 1 * 0
        rw [if_neg (by decide)]; omega
      | ⟨1, _⟩ => by
        show q.val = if (512 : Nat) = 1 then 0 else win0_2.index t (2 : Fin 3) * 512 + 1 * q.val
        rw [if_neg (by decide)]; omega)
  · -- the linear map: the argument's matrix transposed
    show (V m c main_v3 : S1024x1024.Idx → EReal) (((cfg0.win 3).blk t).view.emb (ix2 h o)) = _
    rw [V_map]
    exact transpose_apply [1, 0] (m ((c : Thread nD τ).loc main_arg3)) transposes_S1024x1024_S1024x1024_1_0 _ (ix2 o h)
      (fun b => match b with
      | ⟨0, _⟩ => by show h.val = win0_3.index t (0 : Fin 2) * 1024 + 1 * h.val; omega
      | ⟨1, _⟩ => by show o.val = win0_3.index t (1 : Fin 2) * 1024 + 1 * o.val; omega)
  · -- the bias: the argument's vector as a one-row matrix
    show (V m c main_v4 : S1x1024.Idx → EReal) (((cfg0.win 4).blk t).view.emb (ix2 (0 : Fin 1) o)) = _
    rw [V_bias]
    refine (congrArg (shapeCast S1x1024 (m ((c : Thread nD τ).loc main_arg4)) shapeCasts_S1024_S1x1024)
      (show ((cfg0.win 4).blk t).view.emb (ix2 (0 : Fin 1) o) = ix2 (0 : Fin 1) o from funext fun a => Fin.ext (by
        match a with
        | ⟨0, _⟩ => show win0_4.index t (0 : Fin 2) * 1 + 1 * 0 = 0; omega
        | ⟨1, _⟩ => show win0_4.index t (1 : Fin 2) * 1024 + 1 * o.val = o.val; omega))).trans ?_
    exact Cert.LayoutReads.row_of_vec_apply (m ((c : Thread nD τ).loc main_arg4)) shapeCasts_S1024_S1x1024 o

/-! ## The blocks cover the array -/

theorem mem_blk (t : Fin cfg0.N) (i : S8x2048x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v5).slice (win0_5.rect t)).set ↔ _
  rw [View.set_slice_whole, Rect.mem_set_unit]
  exact Iff.rfl

theorem cover (i : S8x2048x1024.Idx) : ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- THE ARRAY after the run. -/
theorem final (c : Dev nD) : (dats m 0 c).arrAt 5 cfg0.N = GK m c :=
  (dats m 0 c).arrAt_eq_of_cover 5 (GK m c) (fun t _ => flushed_eq m c t) cover

/-- The kernel's run: the result array ends at `GK`, the arguments unchanged. -/
theorem run : θ_run defs (onTc (τ := τ) (main (F := Ideal))) ⟨m, fun _ => 0, ρ⟩ fun r => ∀ c : Dev nD,
      r.2.mem ((c : Thread nD τ).loc main_v5) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrValue

end
-- ==== Proof.RefSoftmax.lean ====
/-
  The reference program read at one entry, first half: the masked scores, their maximum, the exponentials and their sum.

  The reference spells the computation over whole arrays: the scores `Σ_h x0(b,p,h) · x1(b,q,h)` for every batch `b`,
  passage row `p` and question row `q`; the mask `x2` converted to floats and repeated over `p`; the masked scores; a
  softmax along `q` (maximum from -∞, exponentials of the differences, their sum from the zero word, the quotient);
  the mask again; the renormalisation by `Σ + ε`; the contraction with the question rows; the linear map and bias; the
  positive part. Every stage is read here at explicit coordinates `(b, p, q)`, `(b, p)`, `(b, p, h)` or `(b, p, o)`: a
  layout stage repeats one element of its operand, a pointwise stage is the scalar operation, a contraction or a sum
  is a finite sum over the contracted coordinate, and the maximum along `q` is the fold of `max` from -∞ (one more
  `max` with -∞ changes nothing, -∞ being the least extended real).
-/
import proofs.«124821_j25975962206470_2_alg».proof.Proof.Gen.ReferenceIdeal.Read
import proofs.«124821_j25975962206470_2_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

/-- Two index functions of rank 3 (rank 2, rank 1) with equal coordinates are equal. -/
local macro "idx3" : tactic => `(tactic| (funext a; match a with | ⟨0, _⟩ => rfl | ⟨1, _⟩ => rfl | ⟨2, _⟩ => rfl))
local macro "idx2" : tactic => `(tactic| (funext a; match a with | ⟨0, _⟩ => rfl | ⟨1, _⟩ => rfl))
local macro "idx1" : tactic => `(tactic| (funext a; match a with | ⟨0, _⟩ => rfl))

variable (x0 : (⟨S8x2048x1024, .f32⟩ : BufTy).Contents (Elt Ideal)) (x1 : (⟨S8x512x1024, .f32⟩ : BufTy).Contents (Elt Ideal))
  (x2 : (⟨S8x512, .i32⟩ : BufTy).Contents (Elt Ideal)) (x3 : (⟨S1024x1024, .f32⟩ : BufTy).Contents (Elt Ideal))
  (x4 : (⟨S1024, .f32⟩ : BufTy).Contents (Elt Ideal))

/-- The scores of passage row `(b, p)` and the float mask row of batch `b`, as functions of the question row. -/
abbrev scR (b : Fin 8) (p : Fin 2048) : Fin 512 → EReal := fun k => ∑ h : Fin 1024, x0 (ix3 b p h) * x1 (ix3 b k h)
abbrev mkR (b : Fin 8) : Fin 512 → EReal := fun k => val_main_v1 (F := Ideal) x2 (ix2 b k)

theorem v0_at (b : Fin 8) (p : Fin 2048) (q : Fin 512) : val_main_v0 (F := Ideal) x0 x1 (ix3 b p q) = scR x0 x1 b p q := by
  rw [val_main_v0_apply]
  refine Finset.sum_congr rfl fun k _ => ?_
  rw [show lidx_main_v0 (ix3 b p q) k = ix3 b p k from by idx3, show ridx_main_v0 (ix3 b p q) k = ix3 b q k from by idx3]

theorem v2_at (b : Fin 8) (q : Fin 512) : val_main_v2 (F := Ideal) x2 (ix3 b (0 : Fin 1) q) = mkR x2 b q := by
  rw [val_main_v2_apply, show idx_main_v2 (ix3 b (0 : Fin 1) q) = ix2 b q from by idx2]

theorem v3_at (b : Fin 8) (p : Fin 2048) (q : Fin 512) : val_main_v3 (F := Ideal) x2 (ix3 b p q) = mkR x2 b q := by
  rw [val_main_v3_apply, show idx_main_v3 (ix3 b p q) = ix3 b (0 : Fin 1) q from by idx3, v2_at]

theorem v4_at (b : Fin 8) (p : Fin 2048) (q : Fin 512) :
    val_main_v4 (F := Ideal) x0 x1 x2 (ix3 b p q) = scR x0 x1 b p q * mkR x2 b q := by
  rw [val_main_v4_apply, v0_at, v3_at, Ideal.mulf_def]

/-- The maximum along the question axis, from -∞. -/
theorem v5_at (b : Fin 8) (p : Fin 2048) :
    val_main_v5 (F := Ideal) x0 x1 x2 (ix2 b p) = rowMax (fun k => scR x0 x1 b p k * mkR x2 b k) := by
  unfold val_main_v5
  have hr : S8x2048x512.Reduces [2] S8x2048 := by decide
  refine (Host.reduce_eq_fold_single (FloatOps.maximumf (F := Ideal) (φ := .f32)) (val_main_v4 (F := Ideal) x0 x1 x2) (val_main_cst (F := Ideal))
    reducesTo_S8x2048x512_S8x2048_d2 hr h_S_ (ix2 b p)).trans ?_
  unfold rowMax
  exact congrArg (fun f => Finset.fold max negInf f (Finset.univ : Finset (Fin 512)))
    (funext fun k => (congrArg (val_main_v4 (F := Ideal) x0 x1 x2)
      (show hr.lift (ix2 b p) k = ix3 b p k from funext fun a => Fin.ext (by
        match a with | ⟨0, _⟩ => rfl | ⟨1, _⟩ => rfl | ⟨2, _⟩ => rfl))).trans (v4_at x0 x1 x2 b p k))

theorem v7_at (b : Fin 8) (p : Fin 2048) :
    val_main_v7 (F := Ideal) x0 x1 x2 (ix2 b p) = rowMax (fun k => scR x0 x1 b p k * mkR x2 b k) := by
  rw [val_main_v7_apply, val_main_v6_apply, val_main_cst_0_apply, v5_at, Ideal.maximumf_def, Ideal.ofBits_def]
  have hb : Ideal.ofBits .f32 0xFF800000#32 = (⊥ : EReal) := negInf_eq
  rw [hb]
  exact max_eq_right bot_le

theorem v9_at (b : Fin 8) (p : Fin 2048) (q : Fin 512) :
    val_main_v9 (F := Ideal) x0 x1 x2 (ix3 b p q) = rowMax (fun k => scR x0 x1 b p k * mkR x2 b k) := by
  rw [val_main_v9_apply, show idx_main_v9 (ix3 b p q) = ix3 b p (0 : Fin 1) from by idx3, val_main_v8_apply,
    show idx_main_v8 (ix3 b p (0 : Fin 1)) = ix2 b p from by idx2, v7_at]

theorem v11_at (b : Fin 8) (p : Fin 2048) (q : Fin 512) :
    val_main_v11 (F := Ideal) x0 x1 x2 (ix3 b p q) = expRow (scR x0 x1 b p) (mkR x2 b) q := by
  rw [val_main_v11_apply, val_main_v10_apply, v4_at, v9_at, Ideal.hostUnary_exp_def, Ideal.subf_def]
  rfl

theorem v12_at (b : Fin 8) (p : Fin 2048) :
    val_main_v12 (F := Ideal) x0 x1 x2 (ix2 b p) = zeroW + ∑ k, expRow (scR x0 x1 b p) (mkR x2 b) k := by
  rw [val_main_v12_apply]
  refine congrArg (zeroW + ·) (Finset.sum_congr rfl fun k _ => ?_)
  rw [show idx_main_v12 (ix2 b p) k = ix3 b p k from by idx3, v11_at]

theorem v14_at (b : Fin 8) (p : Fin 2048) (q : Fin 512) :
    val_main_v14 (F := Ideal) x0 x1 x2 (ix3 b p q) = zeroW + ∑ k, expRow (scR x0 x1 b p) (mkR x2 b) k := by
  rw [val_main_v14_apply, show idx_main_v14 (ix3 b p q) = ix3 b p (0 : Fin 1) from by idx3, val_main_v13_apply,
    show idx_main_v13 (ix3 b p (0 : Fin 1)) = ix2 b p from by idx2, v12_at]

end Cert.ReferenceIdeal.RefValue

end
-- ==== Proof.RefRead.lean ====
/-
  The reference program read at one entry, second half: from the softmax to the result.

  With the exponentials and their sum read (the first half), the remaining stages are the quotient, the mask, the
  second sum, the renormalising quotient — together the two-step weights —, the contraction with the question rows,
  the linear map with its bias, and the positive part: entry `(b, p, o)` of the result is `rowOut weightsR` of
  passage row `(b, p)`, batch `b`'s question rows and mask row, row `o` of the map's matrix and bias entry `o`.
-/
import proofs.«124821_j25975962206470_2_alg».proof.Proof.RefSoftmax

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

/-- Two index functions of rank 3 (rank 2, rank 1) with equal coordinates are equal. -/
local macro "idx3" : tactic => `(tactic| (funext a; match a with | ⟨0, _⟩ => rfl | ⟨1, _⟩ => rfl | ⟨2, _⟩ => rfl))
local macro "idx2" : tactic => `(tactic| (funext a; match a with | ⟨0, _⟩ => rfl | ⟨1, _⟩ => rfl))
local macro "idx1" : tactic => `(tactic| (funext a; match a with | ⟨0, _⟩ => rfl))

variable (x0 : (⟨S8x2048x1024, .f32⟩ : BufTy).Contents (Elt Ideal)) (x1 : (⟨S8x512x1024, .f32⟩ : BufTy).Contents (Elt Ideal))
  (x2 : (⟨S8x512, .i32⟩ : BufTy).Contents (Elt Ideal)) (x3 : (⟨S1024x1024, .f32⟩ : BufTy).Contents (Elt Ideal))
  (x4 : (⟨S1024, .f32⟩ : BufTy).Contents (Elt Ideal))

theorem v16_at (b : Fin 8) (p : Fin 2048) (q : Fin 512) : val_main_v16 (F := Ideal) x2 (ix3 b p q) = mkR x2 b q := by
  rw [val_main_v16_apply, show idx_main_v16 (ix3 b p q) = ix3 b (0 : Fin 1) q from by idx3, v2_at]

theorem v17_at (b : Fin 8) (p : Fin 2048) (q : Fin 512) :
    val_main_v17 (F := Ideal) x0 x1 x2 (ix3 b p q)
      = Ideal.div (expRow (scR x0 x1 b p) (mkR x2 b) q) (zeroW + ∑ k, expRow (scR x0 x1 b p) (mkR x2 b) k) * mkR x2 b q := by
  rw [val_main_v17_apply, val_main_v15_apply, v11_at, v14_at, v16_at, Ideal.mulf_def, Ideal.hostDivf_def]

theorem v18_at (b : Fin 8) (p : Fin 2048) :
    val_main_v18 (F := Ideal) x0 x1 x2 (ix2 b p)
      = zeroW + ∑ k, Ideal.div (expRow (scR x0 x1 b p) (mkR x2 b) k) (zeroW + ∑ j, expRow (scR x0 x1 b p) (mkR x2 b) j) * mkR x2 b k := by
  rw [val_main_v18_apply]
  refine congrArg (zeroW + ·) (Finset.sum_congr rfl fun k _ => ?_)
  rw [show idx_main_v18 (ix2 b p) k = ix3 b p k from by idx3, v17_at]

theorem v22_at (b : Fin 8) (p : Fin 2048) (q : Fin 512) :
    val_main_v22 (F := Ideal) x0 x1 x2 (ix3 b p q)
      = (zeroW + ∑ k, Ideal.div (expRow (scR x0 x1 b p) (mkR x2 b) k) (zeroW + ∑ j, expRow (scR x0 x1 b p) (mkR x2 b) j) * mkR x2 b k) + epsW := by
  rw [val_main_v22_apply, show idx_main_v22 (ix3 b p q) = ix3 b p (0 : Fin 1) from by idx3, val_main_v21_apply,
    val_main_v19_apply, show idx_main_v19 (ix3 b p (0 : Fin 1)) = ix2 b p from by idx2, v18_at, val_main_v20_apply,
    val_main_cst_3_apply, Ideal.addf_def, Ideal.ofBits_def]

theorem v23_at (b : Fin 8) (p : Fin 2048) (q : Fin 512) :
    val_main_v23 (F := Ideal) x0 x1 x2 (ix3 b p q) = weightsR (scR x0 x1 b p) (mkR x2 b) q := by
  rw [val_main_v23_apply, v17_at, v22_at, Ideal.hostDivf_def]
  rfl

theorem v24_at (b : Fin 8) (p : Fin 2048) (h : Fin 1024) :
    val_main_v24 (F := Ideal) x0 x1 x2 (ix3 b p h) = ∑ q : Fin 512, weightsR (scR x0 x1 b p) (mkR x2 b) q * x1 (ix3 b q h) := by
  rw [val_main_v24_apply]
  refine Finset.sum_congr rfl fun k _ => ?_
  rw [show lidx_main_v24 (ix3 b p h) k = ix3 b p k from by idx3, show ridx_main_v24 (ix3 b p h) k = ix3 b k h from by idx3, v23_at]

theorem v25_at (b : Fin 8) (p : Fin 2048) (o : Fin 1024) :
    val_main_v25 (F := Ideal) x0 x1 x2 x3 (ix3 b p o)
      = ∑ h : Fin 1024, (∑ q : Fin 512, weightsR (scR x0 x1 b p) (mkR x2 b) q * x1 (ix3 b q h)) * x3 (ix2 o h) := by
  rw [val_main_v25_apply]
  refine Finset.sum_congr rfl fun k _ => ?_
  rw [show lidx_main_v25 (ix3 b p o) k = ix3 b p k from by idx3, show ridx_main_v25 (ix3 b p o) k = ix2 o k from by idx2, v24_at]

theorem v27_at (b : Fin 8) (p : Fin 2048) (o : Fin 1024) : val_main_v27 (F := Ideal) x4 (ix3 b p o) = x4 (ix1 o) := by
  rw [val_main_v27_apply, show idx_main_v27 (ix3 b p o) = ix3 (0 : Fin 1) (0 : Fin 1) o from by idx3, val_main_v26_apply,
    show idx_main_v26 (ix3 (0 : Fin 1) (0 : Fin 1) o) = ix1 o from by idx1]

/-- Entry `(b, p, o)` of the reference's result. -/
theorem ref_at (b : Fin 8) (p : Fin 2048) (o : Fin 1024) :
    val_main_v29 (F := Ideal) x0 x1 x2 x3 x4 (ix3 b p o)
      = rowOut weightsR (fun h => x0 (ix3 b p h)) (fun q h => x1 (ix3 b q h)) (fun q => val_main_v1 (F := Ideal) x2 (ix2 b q))
          (fun h => x3 (ix2 o h)) (x4 (ix1 o)) := by
  rw [val_main_v29_apply, val_main_v28_apply, v25_at, v27_at, val_main_call0_v0_apply, val_main_call0_cst_apply,
    Ideal.maximumf_def, Ideal.addf_def, Ideal.ofBits_def]
  rfl

/-- THE REFERENCE'S RESULT is `G` with the two-step weights, of the arguments and the float mask. -/
theorem ref_eq : val_main_v29 (F := Ideal) x0 x1 x2 x3 x4 = G weightsR x0 x1 (val_main_v1 (F := Ideal) x2) x3 x4 := by
  funext i
  obtain ⟨b, p, o, rfl⟩ : ∃ (b : Fin 8) (p : Fin 2048) (o : Fin 1024), i = ix3 b p o := ⟨i 0, i 1, i 2, eq_ix3 i⟩
  exact ref_at x0 x1 x2 x3 x4 b p o

end Cert.ReferenceIdeal.RefValue

end
-- ==== Proof.Finite.lean ====
/-
  What the precondition gives: every passage and question entry is a real number.

  The precondition is the conjunction of four whole-array tests `|x| < +∞`, one per float argument, each folded by
  `and` into a single truth value. Its first two conjuncts say that every entry of the passage and of the question
  is strictly below +∞ in absolute value; an extended real with that property is neither +∞ nor -∞ (for -∞ the
  absolute value is +∞ too), so it is a real number. The other two conjuncts (the linear map and the bias) are not
  needed: the two programs treat those arguments identically.
-/
import proofs.«124821_j25975962206470_2_alg».proof.Pre_finite_inputs
import Idealize.ShloMosaic.Lib.ReduceAll
import Idealize.ShloMosaic.Lib.Affine
import Idealize.ShloMosaic.PureOps.Ideal
import Idealize.ShloMosaic.Lib.ValueIdx

noncomputable section

namespace Cert.Pre_finite_inputs.Decode

open Cert.Pre_finite_inputs Idealize.ShloMosaic

variable [Facts]
open Facts

/-- The rank-zero shape has one index. -/
instance : Subsingleton S_.Idx := ⟨fun a b => funext fun d => d.elim0⟩

/-- An extended real whose absolute value is strictly below the word of +∞ is a real number. -/
theorem real_of_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => exact absurd h (by simp [Ideal.cmp])
  | coe r => exact ⟨r, rfl⟩
  | top => exact absurd h (by simp [Ideal.cmp])

/-- Under the precondition the passage and the question hold real numbers. -/
theorem real_args (a0 : FVec Ideal S8x2048x1024 .f32) (a1 : FVec Ideal S8x512x1024 .f32) (a2 : IVec S8x512 32)
    (a3 : FVec Ideal S1024x1024 .f32) (a4 : FVec Ideal S1024 .f32)
    (h : fn (F := Ideal) a0 a1 a2 a3 a4 = fun _ => 1#1) :
    (∀ i, ∃ r : ℝ, a0 i = (r : EReal)) ∧ (∀ i, ∃ r : ℝ, a1 i = (r : EReal)) := by
  have h0 := congrFun h ValueIdx.ix0
  dsimp only [fn, fn_part1] at h0
  obtain ⟨h123, -⟩ := IntOp.andi_eq_one.mp h0
  obtain ⟨h12, -⟩ := IntOp.andi_eq_one.mp h123
  obtain ⟨hA, hB⟩ := IntOp.andi_eq_one.mp h12
  exact ⟨fun i => real_of_lt_inf _ (Host.reduce_andi_all _ _ _ _ _ hA i),
    fun i => real_of_lt_inf _ (Host.reduce_andi_all _ _ _ _ _ hB i)⟩

end Cert.Pre_finite_inputs.Decode

end
-- ==== Proof.lean ====
/-
  A masked attention kernel against its reference: equal results on the extended reals.

  Both programs take a passage `[8, 2048, 1024]`, a question `[8, 512, 1024]`, an integer mask `[8, 512]`, the matrix
  and the bias of a linear map, and compute, for every batch `b` and passage row `p`: the scores against the 512
  question rows, times the mask; a softmax of those along the question axis, masked again and renormalised with a
  small ε; the weighted sum of the question rows; the linear map and bias; the positive part.

  The kernel tiles the passage rows in blocks of 512 over an 8 × 4 grid and FUSES the softmax's normalisation with
  the renormalisation into one quotient, `(e · mask) / (Σ e · mask + ε · Σ e)`, where the reference divides twice,
  `a / (Σ a + ε)` with `a = (e / Σ e) · mask`. On finite inputs `Σ e` is a positive real number (a sum of
  exponentials of real numbers), and the two quotients agree (Proof/Spec.lean `weightsR_eq_weightsK`) — including
  where the denominator vanishes, since both numerators then have the same sign. Everything else is the same
  function on both sides: a change of float format is the identity on the extended reals, a product into a zero
  accumulator and the host's contraction are the same finite sum, and so are the two spellings of a row sum and of a
  row maximum.

  * Proof/Spec.lean         the result as one function `G` of the arguments for either spelling of the weights, and
                            the law joining the two;
  * Proof/KernelRow.lean    the kernel body's value at one entry of its block;
  * Proof/KernelArray.lean  the 32 blocks are the restrictions of `G weightsK` and cover the array;
  * Proof/RefSoftmax.lean, Proof/RefRead.lean   the reference's run is `G weightsR`;
  * Proof/Finite.lean       the precondition makes the passage and the question real-valued.

  The three frames are the generated ones (the reference's is its generated run with the result dropped); the kernel's
  idealization rewrote nothing, so `preserves` is trivial.
-/
import proofs.«124821_j25975962206470_2_alg».proof.Defs
import proofs.«124821_j25975962206470_2_alg».proof.Proof.Gen.Kernel
import proofs.«124821_j25975962206470_2_alg».proof.Proof.Gen.Kernel.Skeleton
import proofs.«124821_j25975962206470_2_alg».proof.Proof.Gen.Kernel.Launch
import proofs.«124821_j25975962206470_2_alg».proof.Proof.Gen.Kernel.Points
import proofs.«124821_j25975962206470_2_alg».proof.Proof.Gen.Kernel.Frame
import proofs.«124821_j25975962206470_2_alg».proof.Proof.Gen.KernelIdeal
import proofs.«124821_j25975962206470_2_alg».proof.Proof.Gen.KernelIdeal.Skeleton
import proofs.«124821_j25975962206470_2_alg».proof.Proof.Gen.KernelIdeal.Launch
import proofs.«124821_j25975962206470_2_alg».proof.Proof.Gen.KernelIdeal.Points
import proofs.«124821_j25975962206470_2_alg».proof.Proof.Gen.KernelIdeal.Frame
import proofs.«124821_j25975962206470_2_alg».proof.Proof.Gen.ReferenceIdeal
import proofs.«124821_j25975962206470_2_alg».proof.Proof.Gen.Pre_finite_inputs
import proofs.«124821_j25975962206470_2_alg».proof.Proof.Gen.KernelIdeal.Value
import proofs.«124821_j25975962206470_2_alg».proof.Proof.Gen.ReferenceIdeal.Run
import proofs.«124821_j25975962206470_2_alg».proof.Proof.Gen.ReferenceIdeal.Read
import proofs.«124821_j25975962206470_2_alg».proof.Proof.KernelArray
import proofs.«124821_j25975962206470_2_alg».proof.Proof.RefRead
import proofs.«124821_j25975962206470_2_alg».proof.Proof.Finite
import Idealize.ShloMosaic.Adequacy
import Idealize.ShloMosaic.Init

noncomputable section

namespace Cert.Proof

open Idealize.ShloMosaic Idealize.ShloMosaic.TcCoe Idealize.SL.Sem Cert.Attn

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `G weightsK` of the arguments: the kernel's by its blocks, the reference's
    at `G weightsR`, which is the same array once the passage and the question are real-valued (the precondition) —
    the mask, converted from integers, always is. -/
theorem algebraic : Cert.algebraic_KernelIdeal_ReferenceIdeal := by
  intro m ρ m' ρ' hpre hagree
  refine ⟨fun c => Cert.KernelIdeal.ArrValue.GK m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_eq, (hagree c).1, (hagree c).2.1,
    (hagree c).2.2.1, (hagree c).2.2.2.1, (hagree c).2.2.2.2]
  obtain ⟨h0, h1⟩ := Cert.Pre_finite_inputs.Decode.real_args _ _ _ _ _ (hpre c)
  exact G_weightsR_eq _ _ _ _ _ h0 h1 (fun i => ⟨_, rfl⟩)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
